-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S10000x64 : Shape := ⟨2, ![10000, 64]⟩
abbrev S1x64 : Shape := ⟨2, ![1, 64]⟩

abbrev nBuf : Space → Nat
  | .hbm => 32
  | .vmem => 9
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x64, .f32⟩
  | .local _ .vmem, ⟨3, _⟩ => ⟨S10000x64, .f32⟩
  | .local _ .vmem, ⟨4, _⟩ => ⟨S64x64, .f32⟩
  | .local _ .vmem, ⟨5, _⟩ => ⟨S64x64, .f32⟩
  | .local _ .vmem, ⟨6, _⟩ => ⟨S64, .f32⟩
  | .local _ .vmem, ⟨7, _⟩ => ⟨S10000x64, .f32⟩
  | .local _ .vmem, ⟨8, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  shapeCasts_S10000x64_S10000x64 : S10000x64.ShapeCasts S10000x64
  inb_S64x64_S64x64_0_0 : ∀ a, (![0, 0] : Fin 2 → Nat) a + S64x64.size a ≤ S64x64.size a
  h_S64x64 : 0 < S64x64.numel
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S100000x64.size a
  hwx0_1 : ∀ i : grid0.Coords, EltTy.bits .f32 = 32 ∨ (Rect.block (s := S100000x64) S10000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x64.size a ≤ S100000x64.size a
  hwx0_5 : ∀ i : grid0.Coords, EltTy.bits .f32 = 32 ∨ (Rect.block (s := S100000x64) S10000x64.size (cc0_transform_5 i) (hinb0_5 i)).WholeWords (EltTy.packing .f32)

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S10000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S1600000x1 : Shape := ⟨2, ![1600000, 1]⟩
abbrev S1600000x64 : Shape := ⟨2, ![1600000, 64]⟩
abbrev S100000 : Shape := ⟨1, ![100000]⟩
abbrev S100000x1 : Shape := ⟨2, ![100000, 1]⟩
abbrev S1x64 : Shape := ⟨2, ![1, 64]⟩

abbrev nBuf : Space → Nat
  | .hbm => 45
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x64, .f32⟩
  | .hbm, ⟨15, _⟩ => ⟨S_, .f32⟩
  | .hbm, ⟨16, _⟩ => ⟨S100000x64, .f32⟩
  | .hbm, ⟨17, _⟩ => ⟨S1600000x1, .i32⟩
  | .hbm, ⟨18, _⟩ => ⟨S100000x64, .f32⟩
  | .hbm, ⟨19, _⟩ => ⟨S_, .f32⟩
  | .hbm, ⟨20, _⟩ => ⟨S1600000, .f32⟩
  | .hbm, ⟨21, _⟩ => ⟨S_, .f32⟩
  | .hbm, ⟨22, _⟩ => ⟨S100000, .f32⟩
  | .hbm, ⟨23, _⟩ => ⟨S1600000x1, .i32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x64, .f32⟩
  | .hbm, ⟨30, _⟩ => ⟨S100000x64, .f32⟩
  | .hbm, ⟨31, _⟩ => ⟨S100000x64, .f32⟩
  | .hbm, ⟨32, _⟩ => ⟨S100000x64, .f32⟩
  | .hbm, ⟨33, _⟩ => ⟨S100000x64, .f32⟩
  | .hbm, ⟨34, _⟩ => ⟨S1x64, .f32⟩
  | .hbm, ⟨35, _⟩ => ⟨S100000x64, .f32⟩
  | .hbm, ⟨36, _⟩ => ⟨S100000x64, .f32⟩
  | .hbm, ⟨37, _⟩ => ⟨S100000x64, .f32⟩
  | .hbm, ⟨38, _⟩ => ⟨S100000x64, .f32⟩
  | .hbm, ⟨39, _⟩ => ⟨S_, .f32⟩
  | .hbm, ⟨40, _⟩ => ⟨S100000x64, .f32⟩
  | .hbm, ⟨41, _⟩ => ⟨S100000x64, .f32⟩
  | .hbm, ⟨42, _⟩ => ⟨S_, .f32⟩
  | .hbm, ⟨43, _⟩ => ⟨S100000x64, .f32⟩
  | .hbm, ⟨44, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_4 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_v29 : Ref sig .tc := ⟨.hbm, 43, rfl⟩
abbrev main_v30 : Ref sig .tc := ⟨.hbm, 44, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x64 : S_.BroadcastsInDim S100000x64 (![] : Fin 0 → Fin S100000x64.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  scatter_S100000_S1600000x1_S1600000_n_0_0_1_wf : ScatterDims.WF S100000 S1600000x1 S1600000 [] [0] [0] 1
  dot_S100000x64_S64x64_S100000x64_1_0_0_1_n_n_wf : DotDims.WF S100000x64 S64x64 S100000x64 [1] [0] [0] [1] [] []

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.BlockIndex.lean ====
/-
  Where the blocks of the ten grid points sit.

  Point t works on nodes 10000·t … 10000·t + 9999 (`node t p` is the p-th of them). Its blocks of the two row-blocked
  inputs and of the output are those rows, all 64 columns; its blocks of the two weight matrices and of the biases are the
  whole arrays. So an entry (p, k) of a row block sits at (node t p, k) of its array, and an entry of a small array's
  block sits at the same place of the array. Every (node, class) of the output lies in the block of the point whose row
  block is ⌊node / 10000⌋: the ten blocks cover the output.
-/
import proofs.«108408_j90134183674479_1_alg».proof.Proof.Gen.KernelIdeal.Frame
import proofs.«108408_j90134183674479_1_alg».proof.Proof.Gen.KernelIdeal.Points
import Idealize.ShloMosaic.Lib.ValueIdx
import Idealize.ShloMosaic.Lib.Pipeline.Value

noncomputable section

namespace Cert.KernelIdeal.BlockIndex

open Cert.KernelIdeal Cert.KernelIdeal.Gen Idealize.ShloMosaic Idealize.ShloMosaic.TcCoe Idealize.SL.Sem
open Idealize.ShloMosaic.ValueIdx

theorem origin2 : (![0, 0] : Fin 2 → Nat) = fun _ => 0 := funext fun a => by fin_cases a <;> rfl
theorem origin1 : (![0] : Fin 1 → Nat) = fun _ => 0 := funext fun a => by fin_cases a <;> rfl

/-- The printed index maps over the ten points: the two row-blocked inputs move with the output's row block and sit in
    column block 0; the weights and the biases are always block 0; the output's row block is at most 9, its column block 0. -/
theorem index_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) ≤ 9 ∧ win0_5.index t (1 : Fin 2) = 0 :=
  (by decide +kernel : ∀ t : Fin grid0.N, _)

/-- Every row block 0 … 9 is some point's. -/
theorem index_onto : ∀ b : Fin 10, ∃ t : Fin cfg0.N, win0_5.index t = ![b.val, 0] :=
  (by decide +kernel : ∀ b : Fin 10, ∃ t : Fin grid0.N, win0_5.index t = ![b.val, 0])

/-- The p-th node of point t's block. -/
def node (t : Fin cfg0.N) (p : Fin 10000) : Fin 100000 :=
  ⟨win0_5.index t (0 : Fin 2) * 10000 + p.val, by
    have h := (index_facts t).2.2.2.2.2.2.2.2.2.1
    have hp := p.isLt
    omega⟩

theorem node_val (t : Fin cfg0.N) (p : Fin 10000) : (node t p).val = win0_5.index t (0 : Fin 2) * 10000 + p.val := rfl

/-- Entry (p, q) of point t's output block is entry (node t p, q) of the output array. -/
theorem out_index (t : Fin cfg0.N) (p : Fin 10000) (q : Fin 64) :
    ((cfg0.win 5).blk t).view.emb (ix2 p q) = ix2 (node t p) q := by
  obtain ⟨e00, e01, e10, e11, e20, e21, e30, e31, e40, e5le, e51⟩ := index_facts t
  funext a; apply Fin.ext
  match a with
  | ⟨0, _⟩ => show win0_5.index t (0 : Fin 2) * 10000 + 1 * p.val = win0_5.index t (0 : Fin 2) * 10000 + p.val; omega
  | ⟨1, _⟩ => show win0_5.index t (1 : Fin 2) * 64 + 1 * q.val = q.val; omega

/-- Entry (p, k) of point t's block of the first operand is entry (node t p, k) of its array. -/
theorem rows0_index (t : Fin cfg0.N) (p : Fin 10000) (k : Fin 64) :
    ((cfg0.win 0).blk t).view.emb (ix2 p k) = ix2 (node t p) k := by
  obtain ⟨e00, e01, e10, e11, e20, e21, e30, e31, e40, e5le, e51⟩ := index_facts t
  funext a; apply Fin.ext
  match a with
  | ⟨0, _⟩ => show win0_0.index t (0 : Fin 2) * 10000 + 1 * p.val = win0_5.index t (0 : Fin 2) * 10000 + p.val; omega
  | ⟨1, _⟩ => show win0_0.index t (1 : Fin 2) * 64 + 1 * k.val = k.val; omega

/-- Entry (p, k) of point t's block of the second operand is entry (node t p, k) of its array. -/
theorem rows1_index (t : Fin cfg0.N) (p : Fin 10000) (k : Fin 64) :
    ((cfg0.win 1).blk t).view.emb (ix2 p k) = ix2 (node t p) k := by
  obtain ⟨e00, e01, e10, e11, e20, e21, e30, e31, e40, e5le, e51⟩ := index_facts t
  funext a; apply Fin.ext
  match a with
  | ⟨0, _⟩ => show win0_1.index t (0 : Fin 2) * 10000 + 1 * p.val = win0_5.index t (0 : Fin 2) * 10000 + p.val; omega
  | ⟨1, _⟩ => show win0_1.index t (1 : Fin 2) * 64 + 1 * k.val = k.val; omega

/-- The third operand's block is the whole matrix. -/
theorem whole2_index (t : Fin cfg0.N) (k q : Fin 64) : ((cfg0.win 2).blk t).view.emb (ix2 k q) = ix2 k q := by
  obtain ⟨e00, e01, e10, e11, e20, e21, e30, e31, e40, e5le, e51⟩ := index_facts t
  funext a; apply Fin.ext
  match a with
  | ⟨0, _⟩ => show win0_2.index t (0 : Fin 2) * 64 + 1 * k.val = k.val; omega
  | ⟨1, _⟩ => show win0_2.index t (1 : Fin 2) * 64 + 1 * q.val = q.val; omega

/-- The fourth operand's block is the whole matrix. -/
theorem whole3_index (t : Fin cfg0.N) (k q : Fin 64) : ((cfg0.win 3).blk t).view.emb (ix2 k q) = ix2 k q := by
  obtain ⟨e00, e01, e10, e11, e20, e21, e30, e31, e40, e5le, e51⟩ := index_facts t
  funext a; apply Fin.ext
  match a with
  | ⟨0, _⟩ => show win0_3.index t (0 : Fin 2) * 64 + 1 * k.val = k.val; omega
  | ⟨1, _⟩ => show win0_3.index t (1 : Fin 2) * 64 + 1 * q.val = q.val; omega

/-- The fifth operand's block is the whole vector. -/
theorem whole4_index (t : Fin cfg0.N) (q : Fin 64) : ((cfg0.win 4).blk t).view.emb (ix1 q) = ix1 q := by
  obtain ⟨e00, e01, e10, e11, e20, e21, e30, e31, e40, e5le, e51⟩ := index_facts t
  funext a; apply Fin.ext
  match a with
  | ⟨0, _⟩ => show win0_4.index t (0 : Fin 1) * 64 + 1 * q.val = q.val; omega

/-- An index of the output array is in point t's block iff each coordinate is in the block's range on its axis. -/
theorem mem_blk5 (t : Fin cfg0.N) (i : S100000x64.Idx) :
    i ∈ ((cfg0.win 5).blk t).view.set ↔ ∀ a : Fin 2, win0_5.index t a * S10000x64.size a ≤ (i a).val ∧ (i a).val < win0_5.index t a * S10000x64.size a + S10000x64.size a := by
  show i ∈ ((View.whole main_v19).slice (win0_5.rect t)).set ↔ _
  rw [View.set_slice_whole, Rect.mem_set_unit]
  exact Iff.rfl

/-- Every (node, class) lies in the block of the point whose row block is ⌊node / 10000⌋. -/
theorem covered (i : S100000x64.Idx) : ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := index_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk5]
  intro a
  match a with
  | ⟨0, _⟩ => show win0_5.index t (0 : Fin 2) * 10000 ≤ (i 0).val ∧ (i 0).val < win0_5.index t (0 : Fin 2) * 10000 + 10000; omega
  | ⟨1, _⟩ => show win0_5.index t (1 : Fin 2) * 64 ≤ (i 1).val ∧ (i 1).val < win0_5.index t (1 : Fin 2) * 64 + 64; omega

end Cert.KernelIdeal.BlockIndex

end
-- ==== Proof.LibTileRead.lean ====
/-
  Readings at an index given by coordinates that a tile of pairwise quantities meets, over generic extents `a`, `b`.

  * A transposed matrix `[a, b] → [b, a]` reads at `(q, p)` the matrix at `(p, q)` (`transpose_swap_apply`).
  * A row `[1, b]` stretched over `[a, b]` reads at `(p, q)` the row at `(0, q)` (`broadcastTo_row_apply`).
  * A column `[a, 1]` recast as a vector `[a]`, a vector `[b]` recast as a row `[1, b]`, and a row `[1, b]` recast
    as `[1, 1, b]`, each read where the row-major position says (`shapeCast_uncolumn_apply`, `shapeCast_row_apply`,
    `shapeCast_row3_apply`).
  * The minimum of an `[a, b]` array of extended reals along its second axis, from the word of `+∞`, reads at `p` the
    infimum over `q` of the entries `(p, q)` (`rowMin_apply`); along its first axis it reads at `q` the infimum over
    `p` (`colMin_apply`): a fold of `min` from the top element over a whole finite type is the infimum.
  * The host's minimum-reduction of an `[a, b]` array along its first axis, from a scalar holding the word of `+∞`,
    likewise (`hostColMin_apply`).
  * A plain matrix product `[M, K] × [K, N] → [M, N]` (`PlainDot`: the left operand's second axis contracted with the
    right operand's first) into the zero accumulator reads at `(p, n)` the sum over `k` of `x (p, k) · w (k, n)`
    (`matmul_zero_plain_apply`).
-/
import Idealize.ShloMosaic.Lib.ValueIdx
import Idealize.ShloMosaic.Lib.Pipeline.Value
import Idealize.ShloMosaic.PureOps.Ideal.Laws

noncomputable section

namespace Cert.Lib.TileRead

open Idealize.ShloMosaic Idealize.ShloMosaic.ValueIdx

/-- The word of `+∞` is the top element of the extended reals. -/
theorem inf_word : Ideal.ofBits .f32 0x7F800000#32 = (⊤ : EReal) := by simp [Ideal.ofBits, Ideal.ieee]

/-- The fold of `min` from `⊤` over a whole finite type is the infimum of the family. -/
theorem fold_min_top {ι : Type*} [Fintype ι] (f : ι → EReal) : (Finset.univ : Finset ι).fold min ⊤ f = ⨅ k, f k := by
  apply le_antisymm
  · exact le_iInf fun k => (Finset.fold_min_le _).2 (Or.inr ⟨k, Finset.mem_univ k, le_rfl⟩)
  · exact (Finset.le_fold_min _).2 ⟨le_top, fun k _ => iInf_le f k⟩

/-! ## Layout -/

/-- A matrix transposed reads at `(q, p)` the matrix at `(p, q)`. -/
theorem transpose_swap_apply {α : Type} {a b : ℕ} (x : (⟨2, ![a, b]⟩ : Shape).Idx → α)
    (h : (⟨2, ![a, b]⟩ : Shape).Transposes [1, 0] ⟨2, ![b, a]⟩) (q : Fin b) (p : Fin a) :
    transpose ⟨2, ![b, a]⟩ [1, 0] x h (ix2 q p) = x (ix2 p q) :=
  transpose_apply [1, 0] x h (ix2 q p) (ix2 p q) fun bx => by
    match bx with
    | ⟨0, _⟩ => rfl
    | ⟨1, _⟩ => rfl

/-- A row `[1, b]` broadcast to `[a, b]` reads, at `(p, q)`, the row at `(0, q)`. -/
theorem broadcastTo_row_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- An `[a, 1]` column cast to `[a]` reads, at `p`, the column at `(p, 0)`. -/
theorem shapeCast_uncolumn_apply {α : Type} {a : ℕ} (x : (⟨2, ![a, 1]⟩ : Shape).Idx → α)
    (h : (⟨2, ![a, 1]⟩ : Shape).ShapeCasts ⟨1, ![a]⟩) (p : Fin a) :
    shapeCast ⟨1, ![a]⟩ x h (ix1 p) = x (ix2 p (0 : Fin 1)) :=
  shapeCast_apply x h _ _ (by
    rw [Shape.rowMajor_val_two, Shape.rowMajor_val_one]
    show p.val * 1 + 0 = p.val
    omega)

/-- A `[b]` vector cast to a `[1, b]` row reads, at `(0, q)`, the vector at `q`. -/
theorem shapeCast_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) :=
  shapeCast_apply x h _ _ (by
    have hu : u.val = 0 := by omega
    rw [Shape.rowMajor_val_two, Shape.rowMajor_val_one]
    show q.val = u.val * b + q.val
    rw [hu, Nat.zero_mul, Nat.zero_add])

/-- A `[1, b]` row cast to `[1, 1, b]` reads, at `(0, 0, q)`, the row at `(0, q)`. -/
theorem shapeCast_row3_apply {α : Type} {b : ℕ} (x : (⟨2, ![1, b]⟩ : Shape).Idx → α)
    (h : (⟨2, ![1, b]⟩ : Shape).ShapeCasts ⟨3, ![1, 1, b]⟩) (u v : Fin 1) (q : Fin b) :
    shapeCast ⟨3, ![1, 1, b]⟩ x h (ix3 u v q) = x (ix2 (0 : Fin 1) q) :=
  shapeCast_apply x h _ _ (by
    have hu : u.val = 0 := by omega
    have hv : v.val = 0 := by omega
    rw [Shape.rowMajor_val_three, Shape.rowMajor_val_two]
    show 0 * b + q.val = (u.val * 1 + v.val) * b + q.val
    rw [hu, hv])

/-! ## Minima along one axis of a matrix -/

/-- The minimum along the second axis, from the word of `+∞`, at `p`: the infimum of row `p`. -/
theorem rowMin_apply {a b : ℕ} (v : FVec Ideal ⟨2, ![a, b]⟩ .f32) (h : (⟨2, ![a, b]⟩ : Shape).Reduces [1] ⟨1, ![a]⟩)
    (hφ : FKind.Formats .f32) (hacc : (0x7F800000#32 : BitVec 32) = FKind.minimumf.neutral .f32 hφ) (p : Fin a) :
    multiReduction .minimumf [1] ⟨1, ![a]⟩ v 0x7F800000#32 h hφ hacc (ix1 p) = ⨅ q : Fin b, v (ix2 p q) := by
  refine (multiReduction_minimumf_eq_fold v _ h hφ hacc (ix1 p)).trans ?_
  refine (h.fold_filter_drop_single FloatOps.minimumf _ v (ix1 p)).trans ?_
  show Finset.fold min (Ideal.ofBits .f32 0x7F800000#32) (fun q : Fin b => v (h.lift (ix1 p) q)) Finset.univ = _
  rw [inf_word, fold_min_top]
  exact iInf_congr fun q => congrArg v (funext fun d => Fin.ext (by
    match d with
    | ⟨0, _⟩ => rfl
    | ⟨1, _⟩ => rfl))

/-- The minimum along the first axis, from the word of `+∞`, at `q`: the infimum of column `q`. -/
theorem colMin_apply {a b : ℕ} (v : FVec Ideal ⟨2, ![a, b]⟩ .f32) (h : (⟨2, ![a, b]⟩ : Shape).Reduces [0] ⟨1, ![b]⟩)
    (hφ : FKind.Formats .f32) (hacc : (0x7F800000#32 : BitVec 32) = FKind.minimumf.neutral .f32 hφ) (q : Fin b) :
    multiReduction .minimumf [0] ⟨1, ![b]⟩ v 0x7F800000#32 h hφ hacc (ix1 q) = ⨅ p : Fin a, v (ix2 p q) := by
  refine (multiReduction_minimumf_eq_fold v _ h hφ hacc (ix1 q)).trans ?_
  refine (h.fold_filter_drop_single FloatOps.minimumf _ v (ix1 q)).trans ?_
  show Finset.fold min (Ideal.ofBits .f32 0x7F800000#32) (fun p : Fin a => v (h.lift (ix1 q) p)) Finset.univ = _
  rw [inf_word, fold_min_top]
  exact iInf_congr fun p => congrArg v (funext fun d => Fin.ext (by
    match d with
    | ⟨0, _⟩ => rfl
    | ⟨1, _⟩ => rfl))

/-- The host's minimum-reduction along the first axis, from a scalar holding the word of `+∞`, at `q`. -/
theorem hostColMin_apply {a b : ℕ} {u : Shape} (x : (⟨2, ![a, b]⟩ : Shape).Idx → EReal)
    (h' : (⟨2, ![a, b]⟩ : Shape).ReducesTo [0] ⟨1, ![b]⟩) (h : (⟨2, ![a, b]⟩ : Shape).Reduces [0] ⟨1, ![b]⟩)
    (hu : 0 < u.numel) (q : Fin b) :
    Host.reduce (FloatOps.minimumf (F := Ideal) (φ := .f32)) x (constant (F := Ideal) u .f32 0x7F800000#32) h' hu (ix1 q)
      = ⨅ p : Fin a, x (ix2 p q) := by
  refine (Host.reduce_eq_fold_single (FloatOps.minimumf (F := Ideal) (φ := .f32)) x _ h' h hu (ix1 q)).trans ?_
  show Finset.fold min (Ideal.ofBits .f32 0x7F800000#32) (fun p : Fin a => x (h.lift (ix1 q) p)) Finset.univ = _
  rw [inf_word, fold_min_top]
  exact iInf_congr fun p => congrArg x (funext fun d => Fin.ext (by
    match d with
    | ⟨0, _⟩ => rfl
    | ⟨1, _⟩ => rfl))

/-! ## A plain matrix product -/

/-- The dimension numbers of a plain product: one contracted axis of extent `K`; the left operand's index at output `j`
    and contraction index `q` is `(j 0, q)`, the right operand's `(q, j 1)`. -/
structure PlainDot {M K N : Nat} (d : DotDims (⟨2, ![M, K]⟩ : Shape) (⟨2, ![K, N]⟩ : Shape) (⟨2, ![M, N]⟩ : Shape)) : Prop where
  hr : d.contr.rank = 1
  hs : d.contr.size ⟨0, by omega⟩ = K
  l0 : ∀ (j : (⟨2, ![M, N]⟩ : Shape).Idx) (q : d.contr.Idx), (d.lhsIdx j q 0).val = (j 0).val
  l1 : ∀ (j : (⟨2, ![M, N]⟩ : Shape).Idx) (q : d.contr.Idx), (d.lhsIdx j q 1).val = (q ⟨0, by omega⟩).val
  r0 : ∀ (j : (⟨2, ![M, N]⟩ : Shape).Idx) (q : d.contr.Idx), (d.rhsIdx j q 0).val = (q ⟨0, by omega⟩).val
  r1 : ∀ (j : (⟨2, ![M, N]⟩ : Shape).Idx) (q : d.contr.Idx), (d.rhsIdx j q 1).val = (j 1).val

variable {M K N : Nat}

/-- The contraction's sum at output `j` is the sum over `k : Fin K` of `x (j 0, k) · w (k, j 1)`. -/
theorem sum_contr_plain_eq (d : DotDims (⟨2, ![M, K]⟩ : Shape) (⟨2, ![K, N]⟩ : Shape) (⟨2, ![M, N]⟩ : Shape)) (h : PlainDot d)
    (x : (⟨2, ![M, K]⟩ : Shape).Idx → EReal) (w : (⟨2, ![K, N]⟩ : Shape).Idx → EReal) (j : (⟨2, ![M, N]⟩ : Shape).Idx) :
    ∑ q : d.contr.Idx, x (d.lhsIdx j q) * w (d.rhsIdx j q) = ∑ k : Fin K, x (ix2 (j 0) k) * w (ix2 k (j 1)) := by
  rw [← Equiv.sum_comp (contrEquiv1 d K h.hr h.hs).symm]
  refine Finset.sum_congr rfl fun k _ => ?_
  have hk := contrEquiv1_symm_val d K h.hr h.hs k
  have el : d.lhsIdx j ((contrEquiv1 d K h.hr h.hs).symm k) = ix2 (j 0) k := funext fun a => Fin.ext (by
    match a with
    | ⟨0, _⟩ => exact h.l0 _ _
    | ⟨1, _⟩ => exact (h.l1 _ _).trans hk)
  have er : d.rhsIdx j ((contrEquiv1 d K h.hr h.hs).symm k) = ix2 k (j 1) := funext fun a => Fin.ext (by
    match a with
    | ⟨0, _⟩ => exact (h.r0 _ _).trans hk
    | ⟨1, _⟩ => exact h.r1 _ _)
  exact congrArg₂ (· * ·) (congrArg x el) (congrArg w er)

/-- The product into the zero accumulator, read at `(p, n)`. -/
theorem matmul_zero_plain_apply {φ₁ φ₂ : FTy}
    (d : DotDims (⟨2, ![M, K]⟩ : Shape) (⟨2, ![K, N]⟩ : Shape) (⟨2, ![M, N]⟩ : Shape)) (hd : PlainDot d)
    (prec : Option ContractPrecision) (lhs : FVec Ideal ⟨2, ![M, K]⟩ φ₁) (rhs : FVec Ideal ⟨2, ![K, N]⟩ φ₂) (p : Fin M) (n : Fin N) :
    matmul d prec lhs rhs (constant ⟨2, ![M, N]⟩ .f32 0x00000000#32) (ix2 p n) = ∑ k : Fin K, lhs (ix2 p k) * rhs (ix2 k n) :=
  (Ideal.matmul_constant_zero_apply d prec lhs rhs (ix2 p n)).trans (sum_contr_plain_eq d hd lhs rhs (ix2 p n))

end Cert.Lib.TileRead

end
-- ==== Proof.BlockValue.lean ====
/-
  What the kernel body computes for one block of 10000 nodes, read at (node p of the block, class q).

  The body loads the block's own features `x0` and neighbourhood means `x1` (both 10000 × 64), the two weight matrices
  `x2`, `x3` (64 × 64) and the biases `x4` (64). It narrows all four matrices to bf16 — the identity on extended reals
  —, multiplies `x0 · x2` and `x1 · x3` each into a zero accumulator, adds the products, adds the biases stretched over
  the rows (the vector recast as a 1 × 64 row, the row repeated 10000 times), and applies the logistic function. At
  (p, q) that is

      σ ( ( Σ_k x0(p, k) · x2(k, q)  +  Σ_k x1(p, k) · x3(k, q) )  +  x4(q) ):

  each product read as its sum over the 64 contracted positions, the stretched row read at its one row.
-/
import proofs.«108408_j90134183674479_1_alg».proof.Proof.Gen.KernelIdeal.Skeleton
import proofs.«108408_j90134183674479_1_alg».proof.Proof.LibTileRead
import Idealize.ShloMosaic.Lib.ValueIdx
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx Cert.Lib.TileRead

/-- The body's two products are plain matrix products: the left operand's second axis against the right operand's
    first, 64 positions; the left index at output (p, q) and position k is (p, k), the right one (k, q). -/
theorem plain_product : PlainDot dot_S10000x64_S64x64_S10000x64_1_0_0_1_n_n where
  hr := rfl
  hs := rfl
  l0 := fun j q => by
    unfold DotDims.lhsIdx
    rw [dif_neg (show ¬(0 : Fin S10000x64.rank) ∈ dot_S10000x64_S64x64_S10000x64_1_0_0_1_n_n.lhsBatch by decide),
      dif_pos (show (0 : Fin S10000x64.rank) ∈ dot_S10000x64_S64x64_S10000x64_1_0_0_1_n_n.lhsNonContracting by decide)]
    rfl
  l1 := fun j q => dot_S10000x64_S64x64_S10000x64_1_0_0_1_n_n.lhsIdx_val_of_single rfl j q
  r0 := fun j q => dot_S10000x64_S64x64_S10000x64_1_0_0_1_n_n.rhsIdx_val_of_single rfl j q
  r1 := fun j q => by
    unfold DotDims.rhsIdx
    rw [dif_neg (show ¬(1 : Fin S64x64.rank) ∈ dot_S10000x64_S64x64_S10000x64_1_0_0_1_n_n.rhsBatch by decide),
      dif_pos (show (1 : Fin S64x64.rank) ∈ dot_S10000x64_S64x64_S10000x64_1_0_0_1_n_n.rhsNonContracting by decide)]
    rfl

/-- The body's result at (p, q), from the five loaded blocks. -/
theorem body_apply (x0 x1 : Vec Ideal S10000x64 .f32) (x2 x3 : Vec Ideal S64x64 .f32) (x4 : Vec Ideal S64 .f32)
    (p : Fin 10000) (q : Fin 64) :
    k0_pay1 (F := Ideal) x0 x1 x2 x3 x4 (ix2 p q)
      = Ideal.logistic (((∑ k : Fin 64, x0 (ix2 p k) * x2 (ix2 k q)) + ∑ k : Fin 64, x1 (ix2 p k) * x3 (ix2 k q)) + x4 (ix1 q)) := by
  unfold k0_pay1
  refine congrArg Ideal.logistic (congrArg₂ (· + ·) (congrArg₂ (· + ·) ?_ ?_) ?_)
  · exact matmul_zero_plain_apply _ plain_product none _ _ p q
  · refine (matmul_zero_plain_apply _ plain_product none _ _ p q).trans ?_
    rw [shapeCast_self]
    rfl
  · exact (broadcastTo_row_apply _ _ p q).trans (shapeCast_row_apply _ _ 0 q)

end Cert.KernelIdeal.BlockValue

end
-- ==== Proof.NodeLayer.lean ====
/-
  The layer both programs compute, as ONE function of five arrays, index by index, on the extended reals.

  A graph has 100000 nodes with 64 features each. Given the nodes' own features `x`, an array `h` of the same shape
  (each node's mean over its in-neighbours' features; how it is computed does not matter here), two 64 × 64 weight
  matrices and a 64-vector of biases, the layer's output at node `r` and class `q` is

      σ ( ( Σ_k x(r, k) · ws(k, q)  +  Σ_k h(r, k) · wn(k, q) )  +  b(q) ),      σ(z) = 1 / (1 + e^(-z)),

  the two sums each over the 64 features, added in exactly this grouping (so no law of the extended reals beyond the
  definitions is used anywhere: nothing is re-associated, distributed or cancelled, and no input needs to be finite).

  One program applies the logistic function as a single operation, the other spells it `1 / (1 + exp (-z))` with the
  word of the float 1.0 twice: `spelled_logistic` says these are one function of `z`, on every extended real.
-/
import Idealize.ShloMosaic.Lib.ValueIdx
import Idealize.ShloMosaic.Lib.IdealHost
import Idealize.ShloMosaic.PureOps.Ideal

noncomputable section

namespace Cert.NodeLayer

open Idealize.ShloMosaic Idealize.ShloMosaic.ValueIdx

/-- The pre-activation at node `r`, class `q`: the node's own features through `ws`, plus its neighbourhood mean
    through `wn`, plus the class's bias — grouped `(own + neighbours) + bias`. -/
def score (x h : (⟨2, ![100000, 64]⟩ : Shape).Idx → EReal) (ws wn : (⟨2, ![64, 64]⟩ : Shape).Idx → EReal)
    (b : (⟨1, ![64]⟩ : Shape).Idx → EReal) (r : Fin 100000) (q : Fin 64) : EReal :=
  ((∑ k : Fin 64, x (ix2 r k) * ws (ix2 k q)) + ∑ k : Fin 64, h (ix2 r k) * wn (ix2 k q)) + b (ix1 q)

/-- The layer: the logistic function of the score, at every (node, class). -/
def layer (x h : (⟨2, ![100000, 64]⟩ : Shape).Idx → EReal) (ws wn : (⟨2, ![64, 64]⟩ : Shape).Idx → EReal)
    (b : (⟨1, ![64]⟩ : Shape).Idx → EReal) : (⟨2, ![100000, 64]⟩ : Shape).Idx → EReal :=
  fun i => Ideal.logistic (score x h ws wn b (i 0) (i 1))

theorem layer_apply (x h : (⟨2, ![100000, 64]⟩ : Shape).Idx → EReal) (ws wn : (⟨2, ![64, 64]⟩ : Shape).Idx → EReal)
    (b : (⟨1, ![64]⟩ : Shape).Idx → EReal) (r : Fin 100000) (q : Fin 64) :
    layer x h ws wn b (ix2 r q) = Ideal.logistic (score x h ws wn b r q) := rfl

/-- `1 / (1 + exp (-z))`, with both ones the word of the float 1.0 and the quotient the host's, is the logistic
    function of `z`: the word denotes the real 1, and the logistic function is by definition this quotient
    (so the identity holds at the infinities too: `-∞ ↦ 0`, `+∞ ↦ 1`). -/
theorem spelled_logistic (z : EReal) :
    Ideal.div (Ideal.ofBits .f32 0x3F800000#32) (Ideal.ofBits .f32 0x3F800000#32 + Ideal.exp (-z)) = Ideal.logistic z := by
  rw [Ideal.ofBits_one_f32]
  rfl

end Cert.NodeLayer

end
-- ==== Proof.BlockLayer.lean ====
/-
  One block of the kernel is one block of the layer.

  Take ANY five arrays of the operands' shapes. Read point t's blocks off them, feed the blocks to the kernel body, and
  the result is point t's block of the layer (NodeLayer.lean) of the five arrays: at entry (p, q) the body yields the
  logistic function of (Σ_k x0(p, k) · x2(k, q) + Σ_k x1(p, k) · x3(k, q)) + x4(q) over its blocks (BlockValue.lean), the
  row blocks hold rows `node t p` of their arrays and the small blocks are the whole arrays (BlockIndex.lean), and that is
  the layer at (node t p, q), which is where entry (p, q) of the output block sits.
-/
import proofs.«108408_j90134183674479_1_alg».proof.Proof.BlockIndex
import proofs.«108408_j90134183674479_1_alg».proof.Proof.BlockValue
import proofs.«108408_j90134183674479_1_alg».proof.Proof.NodeLayer

noncomputable section

namespace Cert.KernelIdeal.BlockLayer

open Cert.KernelIdeal Cert.KernelIdeal.Gen Idealize.ShloMosaic Idealize.ShloMosaic.TcCoe Idealize.SL.Sem
open Idealize.ShloMosaic.ValueIdx Cert.NodeLayer Cert.KernelIdeal.BlockValue Cert.KernelIdeal.BlockIndex

/-- The body on point t's blocks of five arrays is point t's block of the layer of the arrays. -/
theorem block_is_layer (t : Fin cfg0.N) (A0 A1 : S100000x64.Idx → EReal) (A2 A3 : S64x64.Idx → EReal) (A4 : S64.Idx → EReal) :
    k0_pay1 (F := Ideal) (((cfg0.win 0).blk t).view.read (Elt Ideal) A0) (((cfg0.win 1).blk t).view.read (Elt Ideal) A1)
        (((cfg0.win 2).blk t).view.read (Elt Ideal) A2) (((cfg0.win 3).blk t).view.read (Elt Ideal) A3)
        (((cfg0.win 4).blk t).view.read (Elt Ideal) A4)
      = ((cfg0.win 5).blk t).view.read (Elt Ideal) (layer A0 A1 A2 A3 A4) := by
  funext j
  obtain ⟨p, q, rfl⟩ : ∃ (p : Fin 10000) (q : Fin 64), j = ix2 p q := ⟨j 0, j 1, eq_ix2 j⟩
  refine (body_apply (((cfg0.win 0).blk t).view.read (Elt Ideal) A0) (((cfg0.win 1).blk t).view.read (Elt Ideal) A1)
    (((cfg0.win 2).blk t).view.read (Elt Ideal) A2) (((cfg0.win 3).blk t).view.read (Elt Ideal) A3)
    (((cfg0.win 4).blk t).view.read (Elt Ideal) A4) p q).trans ?_
  show Ideal.logistic (((∑ k : Fin 64, A0 (((cfg0.win 0).blk t).view.emb (ix2 p k)) * A2 (((cfg0.win 2).blk t).view.emb (ix2 k q)))
        + ∑ k : Fin 64, A1 (((cfg0.win 1).blk t).view.emb (ix2 p k)) * A3 (((cfg0.win 3).blk t).view.emb (ix2 k q)))
        + A4 (((cfg0.win 4).blk t).view.emb (ix1 q)))
      = layer A0 A1 A2 A3 A4 (((cfg0.win 5).blk t).view.emb (ix2 p q))
  rw [out_index, layer_apply, whole4_index]
  unfold score
  refine congrArg Ideal.logistic (congrArg₂ (· + ·) (congrArg₂ (· + ·)
    (Finset.sum_congr rfl fun k _ => ?_) (Finset.sum_congr rfl fun k _ => ?_)) rfl)
  · rw [rows0_index, whole2_index]
  · rw [rows1_index, whole3_index]

end Cert.KernelIdeal.BlockLayer

end
-- ==== Proof.EntryArrays.lean ====
/-
  What the kernel's second operand holds when the region is entered: each node's mean over its in-neighbours' features.

  @main computes it on the host before the region, from the features `x0`, the edges' sources `x1` and destinations
  `x2`: a negative source index is wrapped by the node count, each edge's source row is gathered, the rows are added
  into their destination nodes, a one per edge is added likewise (a node's in-degree), and each node's row is divided
  by its in-degree raised to at least one. The reference computes the same array by the same operations, so this term
  is never opened: it is named, shown to be what the region finds, and handed to both sides as one array.
-/
import proofs.«108408_j90134183674479_1_alg».proof.Proof.Gen.KernelIdeal.Frame
import Idealize.ShloMosaic.Lib.StableHlo.Run
import Idealize.ShloMosaic.PureOps.Ideal

noncomputable section

namespace Cert.KernelIdeal.EntryArrays

open Cert.KernelIdeal Cert.KernelIdeal.Gen Idealize.ShloMosaic Idealize.ShloMosaic.TcCoe Idealize.SL.Sem Idealize.ShloMosaic.StableHlo

/-- The neighbourhood means, as @main's host operations before the region compose them. -/
def neighbourMean (x0 : (⟨S100000x64, .f32⟩ : BufTy).Contents (Elt Ideal)) (x1 x2 : (⟨S1600000, .i32⟩ : BufTy).Contents (Elt Ideal)) :
    (⟨S100000x64, .f32⟩ : BufTy).Contents (Elt Ideal) :=
  Host.divf (F := Ideal) (Host.scatterAdd (F := Ideal) scatter_S100000x64_S1600000x1_S1600000x64_1_0_0_1 (broadcastInDim S100000x64 ![] bcast_S_S100000x64 (constant (F := Ideal) S_ .f32 0x00000000#32)) (broadcastInDim S1600000x1 ![0] bcast_S1600000_S1600000x1_0 (x2)) (Host.gather gather_S100000x64_S1600000x1_S1600000x64_1_0_n_n_0_1_164 (x0) (broadcastInDim S1600000x1 ![0] bcast_S1600000_S1600000x1_0 (select (cmpi .slt (x1) (broadcastInDim S1600000 ![] bcast_S_S1600000 (constantI S_ 32 0#32))) (addi (x1) (broadcastInDim S1600000 ![] bcast_S_S1600000 (constantI S_ 32 100000#32))) (x1))))) (broadcastInDim S100000x64 ![0, 1] bcast_S100000x1_S100000x64_0_1 (broadcastInDim S100000x1 ![0] bcast_S100000_S100000x1_0 (maximumf (Host.scatterAdd (F := Ideal) scatter_S100000_S1600000x1_S1600000_n_0_0_1 (broadcastInDim S100000 ![] bcast_S_S100000 (constant (F := Ideal) S_ .f32 0x00000000#32)) (broadcastInDim S1600000x1 ![0] bcast_S1600000_S1600000x1_0 (x2)) (broadcastInDim S1600000 ![] bcast_S_S1600000 (constant (F := Ideal) S_ .f32 0x3F800000#32))) (broadcastInDim S100000 ![] bcast_S_S100000 (constant (F := Ideal) S_ .f32 0x3F800000#32)))))

variable (m : (ℓ : Loc nD τ sig) → Buf (Elt Ideal) ℓ)

set_option maxHeartbeats 2000000 in
/-- The region finds its second operand's array at the neighbourhood means of the launch contents. -/
theorem V_main_v18 (c : Dev nD) :
    (V m c main_v18 : S100000x64.Idx → EReal)
      = neighbourMean (m ((c : Thread nD τ).loc main_arg0)) (m ((c : Thread nD τ).loc main_arg1)) (m ((c : Thread nD τ).loc main_arg2)) := by
  dsimp only [Gen.V, Gen.hostOps0]
  after_results_simp
  rfl

end Cert.KernelIdeal.EntryArrays

end
-- ==== Proof.NodeBlocks.lean ====
/-
  From blocks of 10000 nodes to the whole output array.

  Point t writes back the kernel body's result on its blocks of the arrays as the region finds them; by BlockLayer.lean
  that is block t of the layer (NodeLayer.lean) of those arrays. The ten blocks cover the output array (BlockIndex.lean),
  which therefore ends holding the layer; and the region finds the arguments as launched and its second operand at the
  neighbourhood means (EntryArrays.lean).
-/
import proofs.«108408_j90134183674479_1_alg».proof.Proof.Gen.KernelIdeal.Value
import proofs.«108408_j90134183674479_1_alg».proof.Proof.BlockLayer
import proofs.«108408_j90134183674479_1_alg».proof.Proof.EntryArrays

noncomputable section

namespace Cert.KernelIdeal.LayerValue

open Cert.KernelIdeal Cert.KernelIdeal.Gen Idealize.ShloMosaic Idealize.ShloMosaic.TcCoe Idealize.SL.Sem
open Cert.NodeLayer Cert.KernelIdeal.BlockIndex Cert.KernelIdeal.BlockLayer Cert.KernelIdeal.EntryArrays
open Idealize.ShloMosaic.Pipeline (Dat)

variable (m : (ℓ : Loc nD τ sig) → Buf (Elt Ideal) ℓ) (ρ : Dev nD → PrngReg)

/-- The layer of equal arrays is the same array. -/
theorem layer_congr {x x' h h' : (⟨2, ![100000, 64]⟩ : Shape).Idx → EReal} {ws ws' wn wn' : (⟨2, ![64, 64]⟩ : Shape).Idx → EReal}
    {b b' : (⟨1, ![64]⟩ : Shape).Idx → EReal} (e0 : x = x') (e1 : h = h') (e2 : ws = ws') (e3 : wn = wn') (e4 : b = b') :
    layer x h ws wn b = layer x' h' ws' wn' b' := by
  subst e0 e1 e2 e3 e4
  rfl

/-- WHAT POINT t WRITES BACK is block t of the layer of the arrays as the region finds them. -/
theorem flushed5_eq (c : Dev nD) (t : Fin cfg0.N) :
    (dats m 0 c).flushed 5 t = ((cfg0.win 5).blk t).view.read (Elt Ideal)
      (layer (V m c main_arg0) (V m c main_v18) (V m c main_arg3) (V m c main_arg4) (V m c main_arg5)) := by
  rw [Cert.KernelIdeal.Value.flushed5]
  unfold out0_5
  rw [View.canon_unit_zero origin2]
  simp only [View.ld_unit_zero (S := S10000x64) origin2, View.ld_unit_zero (S := S64x64) origin2, View.ld_unit_zero (S := S64) origin1]
  exact block_is_layer t (V m c main_arg0) (V m c main_v18) (V m c main_arg3) (V m c main_arg4) (V m c main_arg5)

/-- THE OUTPUT ARRAY after the run: the layer of the launch contents of the arguments, the neighbourhood means in
    second place. -/
theorem final5 (c : Dev nD) : (dats m 0 c).arrAt 5 cfg0.N
    = layer (m ((c : Thread nD τ).loc main_arg0)) (neighbourMean (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5)) :=
  ((dats m 0 c).arrAt_eq_of_cover 5 (layer (V m c main_arg0) (V m c main_v18) (V m c main_arg3) (V m c main_arg4) (V m c main_arg5))
    (fun t _ => flushed5_eq m c t) covered).trans
    (layer_congr (V_main_arg0 m c) (V_main_v18 m c) (V_main_arg3 m c) (V_main_arg4 m c) (V_main_arg5 m c))

/-- The kernel's run: the result array ends at the layer, the arguments unchanged. -/
theorem run : θ_run defs (onTc (τ := τ) (main (F := Ideal))) ⟨m, fun _ => 0, ρ⟩ fun r => ∀ c : Dev nD,
      r.2.mem ((c : Thread nD τ).loc main_v19) = layer (m ((c : Thread nD τ).loc main_arg0)) (neighbourMean (m ((c : Thread nD τ).loc main_arg0)) (m ((c : Thread nD τ).loc main_arg1)) (m ((c : Thread nD τ).loc main_arg2))) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final5 m c), (h c).2⟩) (Cert.KernelIdeal.Value.run_blocks m ρ)

end Cert.KernelIdeal.LayerValue

end
-- ==== Proof.ReferenceLayer.lean ====
/-
  The reference's result is the layer (NodeLayer.lean) of its arguments and of its own neighbourhood-mean stage.

  Read one operation at a time from the result backwards: a quotient of the word of 1.0 by (the word of 1.0 plus the
  exponential of the negated score) — the logistic function spelled out —, the score being the sum of two matrix
  products, each a sum over the 64 contracted positions, plus the biases repeated over the rows. The products' left and
  right positions at output index i and contracted position k are (i₀, k) and (k, i₁); the bias read at i is b(i₁).
-/
import proofs.«108408_j90134183674479_1_alg».proof.Proof.Gen.ReferenceIdeal.Read
import proofs.«108408_j90134183674479_1_alg».proof.Proof.NodeLayer

noncomputable section

namespace Cert.ReferenceIdeal.LayerValue

open Cert.ReferenceIdeal Cert.ReferenceIdeal.Gen Cert.ReferenceIdeal.Read Idealize.ShloMosaic Idealize.ShloMosaic.ValueIdx Cert.NodeLayer

/-- The reference's last stage, as a whole array, is the layer of the features, the neighbourhood-mean stage, the two
    weight matrices and the biases. -/
theorem reference_is_layer (x0 : (⟨S100000x64, .f32⟩ : BufTy).Contents (Elt Ideal)) (x1 x2 : (⟨S1600000, .i32⟩ : BufTy).Contents (Elt Ideal))
    (x3 x4 : (⟨S64x64, .f32⟩ : BufTy).Contents (Elt Ideal)) (x5 : (⟨S64, .f32⟩ : BufTy).Contents (Elt Ideal)) :
    val_main_v30 (F := Ideal) x0 x1 x2 x3 x4 x5 = layer x0 (val_main_v18 (F := Ideal) x0 x1 x2) x3 x4 x5 := by
  funext i
  have hl19 : ∀ k : Fin 64, lidx_main_v19 i k = ix2 (i 0) k := fun k => funext fun a => Fin.ext (by
    match a with
    | ⟨0, _⟩ => rfl
    | ⟨1, _⟩ => rfl)
  have hr19 : ∀ k : Fin 64, ridx_main_v19 i k = ix2 k (i 1) := fun k => funext fun a => Fin.ext (by
    match a with
    | ⟨0, _⟩ => rfl
    | ⟨1, _⟩ => rfl)
  have hl20 : ∀ k : Fin 64, lidx_main_v20 i k = ix2 (i 0) k := fun k => funext fun a => Fin.ext (by
    match a with
    | ⟨0, _⟩ => rfl
    | ⟨1, _⟩ => rfl)
  have hr20 : ∀ k : Fin 64, ridx_main_v20 i k = ix2 k (i 1) := fun k => funext fun a => Fin.ext (by
    match a with
    | ⟨0, _⟩ => rfl
    | ⟨1, _⟩ => rfl)
  have hb : idx_main_v22 (idx_main_v23 i) = ix1 (i 1) := funext fun a => Fin.ext (by
    match a with
    | ⟨0, _⟩ => rfl)
  rw [val_main_v30_apply, val_main_v29_apply, val_main_cst_5_apply, val_main_v28_apply, val_main_v27_apply,
    val_main_cst_4_apply, val_main_v26_apply, val_main_v25_apply, val_main_v24_apply, val_main_v21_apply,
    val_main_v19_apply, val_main_v20_apply, val_main_v23_apply, val_main_v22_apply]
  simp only [hl19, hr19, hl20, hr20, hb]
  exact spelled_logistic (score x0 (val_main_v18 (F := Ideal) x0 x1 x2) x3 x4 x5 (i 0) (i 1))

end Cert.ReferenceIdeal.LayerValue

end
-- ==== Proof.LayerClaims.lean ====
/-
  The five claims, from the pieces.

  Both idealized programs end with their result array at the layer (NodeLayer.lean) of the features, the neighbourhood
  means, the two weight matrices and the biases: the kernel block by block (NodeBlocks.lean), the reference stage by
  stage (ReferenceLayer.lean). Both compute the neighbourhood means on the host by the same operations on the same
  arguments, so the two terms for it are one term (`mean_eq`), and on memories that agree on the arguments the two
  result arrays are equal entry by entry. The three frames are the generated ones (the reference's being its generated
  run with the result dropped); the idealization rewrote no operation, so there is nothing to preserve.
-/
import proofs.«108408_j90134183674479_1_alg».proof.Defs
import proofs.«108408_j90134183674479_1_alg».proof.Proof.Gen.Kernel.Frame
import proofs.«108408_j90134183674479_1_alg».proof.Proof.Gen.KernelIdeal.Frame
import proofs.«108408_j90134183674479_1_alg».proof.Proof.Gen.KernelIdeal.Value
import proofs.«108408_j90134183674479_1_alg».proof.Proof.Gen.ReferenceIdeal.Run
import proofs.«108408_j90134183674479_1_alg».proof.Proof.Gen.ReferenceIdeal.Read
import proofs.«108408_j90134183674479_1_alg».proof.Proof.Gen.Pre_finite_inputs
import proofs.«108408_j90134183674479_1_alg».proof.Proof.NodeBlocks
import proofs.«108408_j90134183674479_1_alg».proof.Proof.ReferenceLayer

noncomputable section

namespace Cert.Proof.LayerClaims

open Idealize.ShloMosaic Idealize.ShloMosaic.TcCoe Idealize.SL.Sem Cert.NodeLayer

/-- The reference's neighbourhood-mean stage and the kernel's host term for its second operand are one term: the same
    operations with the same dimension records and the same literal words, on the same three arrays. -/
theorem mean_eq (x0 : (⟨Cert.ReferenceIdeal.S100000x64, .f32⟩ : BufTy).Contents (Elt Ideal))
    (x1 x2 : (⟨Cert.ReferenceIdeal.S1600000, .i32⟩ : BufTy).Contents (Elt Ideal)) :
    Cert.ReferenceIdeal.Read.val_main_v18 (F := Ideal) x0 x1 x2 = Cert.KernelIdeal.EntryArrays.neighbourMean x0 x1 x2 := rfl

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the six arguments, both runs end with the result array at the layer of the kernel side's
    arguments. -/
theorem algebraic : Cert.algebraic_KernelIdeal_ReferenceIdeal := by
  intro m ρ m' ρ' _ hagree
  refine ⟨_, Cert.KernelIdeal.LayerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5⟩ := hagree c
  rw [Cert.ReferenceIdeal.Read.val_main_v30_eq, Cert.ReferenceIdeal.LayerValue.reference_is_layer, mean_eq, a0, a1, a2, a3, a4, a5]

end Cert.Proof.LayerClaims

end
-- ==== Proof.lean ====
/-
  `Cert.Claim` for a graph layer with mean aggregation over in-neighbours: a kernel that fuses the two 64 × 64 dense
  maps, the bias and the logistic function over blocks of 10000 nodes, against the plain array program.

  Both programs compute each node's neighbourhood mean on the host by the same operations. On the extended reals the
  kernel's bf16 narrowing is the identity and its matrix products into a zero accumulator are the reference's
  contractions, summed over the same 64 positions; the two add the products and the bias in the same grouping; and the
  kernel's single logistic operation is by definition the reference's `1 / (1 + exp (-z))`. So the two result arrays are
  one function of the arguments, entry by entry, with no law of the extended reals used and no appeal to finiteness.
  The modules: NodeLayer (the function), BlockValue (one block of the kernel body at an entry), EntryArrays (the
  kernel's second operand at region entry), NodeBlocks (blocks to the whole array), ReferenceLayer (the reference is
  the function), LayerClaims (the five claims).
-/
import proofs.«108408_j90134183674479_1_alg».proof.Defs
import proofs.«108408_j90134183674479_1_alg».proof.Proof.Gen.Kernel
import proofs.«108408_j90134183674479_1_alg».proof.Proof.Gen.Kernel.Skeleton
import proofs.«108408_j90134183674479_1_alg».proof.Proof.Gen.Kernel.Launch
import proofs.«108408_j90134183674479_1_alg».proof.Proof.Gen.Kernel.Points
import proofs.«108408_j90134183674479_1_alg».proof.Proof.Gen.Kernel.Frame
import proofs.«108408_j90134183674479_1_alg».proof.Proof.Gen.KernelIdeal
import proofs.«108408_j90134183674479_1_alg».proof.Proof.Gen.KernelIdeal.Skeleton
import proofs.«108408_j90134183674479_1_alg».proof.Proof.Gen.KernelIdeal.Launch
import proofs.«108408_j90134183674479_1_alg».proof.Proof.Gen.KernelIdeal.Points
import proofs.«108408_j90134183674479_1_alg».proof.Proof.Gen.KernelIdeal.Frame
import proofs.«108408_j90134183674479_1_alg».proof.Proof.Gen.ReferenceIdeal
import proofs.«108408_j90134183674479_1_alg».proof.Proof.Gen.Pre_finite_inputs
import proofs.«108408_j90134183674479_1_alg».proof.Proof.Gen.KernelIdeal.Value
import proofs.«108408_j90134183674479_1_alg».proof.Proof.Gen.ReferenceIdeal.Run
import proofs.«108408_j90134183674479_1_alg».proof.Proof.Gen.ReferenceIdeal.Read
import proofs.«108408_j90134183674479_1_alg».proof.Proof.LayerClaims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    LayerClaims.frame_kernel, LayerClaims.frame_kernelIdeal, LayerClaims.frame_referenceIdeal, LayerClaims.preserves,
    LayerClaims.algebraic⟩

end Cert.Proof

end
